-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x256 : Shape := ⟨3, ![1024, 64, 256]⟩
abbrev S256x1024 : Shape := ⟨2, ![256, 1024]⟩
abbrev S1024 : Shape := ⟨1, ![1024]⟩
abbrev S256x96 : Shape := ⟨2, ![256, 96]⟩
abbrev S96 : Shape := ⟨1, ![96]⟩
abbrev S_ : Shape := ⟨0, ![]⟩

class Facts : Prop where
  bcast_S_S1024x64x256 : S_.BroadcastsInDim S1024x64x256 (![] : Fin 0 → Fin S1024x64x256.rank)
  reducesTo_S1024x64x256_S_d0_1_2 : S1024x64x256.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S256x96 : S_.BroadcastsInDim S256x96 (![] : Fin 0 → Fin S256x96.rank)
  reducesTo_S256x96_S_d0_1 : S256x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_v13 : IVec S_ 1) (main_v16 : IVec S256x96 1) : IVec S_ 1 :=
  let main_c_5 : IVec S_ 1 := constantI S_ 1 1#1
  let main_v17 : IVec S_ 1 := (fun x v => Host.reduce IntOp.andi x v reducesTo_S256x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S1024x64x256 .f32) (main_arg1 : FVec F S256x1024 .f32) (main_arg2 : FVec F S1024 .f32) (main_arg3 : FVec F S256x96 .f32) (main_arg4 : FVec F S96 .f32) : IVec S_ 1 :=
  let main_v0 : FVec F S1024x64x256 .f32 := Host.absf main_arg0
  let main_cst : FVec F S_ .f32 := constant S_ .f32 0x7F800000#32
  let main_v1 : FVec F S1024x64x256 .f32 := broadcastInDim S1024x64x256 ![] bcast_S_S1024x64x256 main_cst
  let main_v2 : IVec S1024x64x256 1 := cmpf .olt main_v0 main_v1
  let main_c : IVec S_ 1 := constantI S_ 1 1#1
  let main_v3 : IVec S_ 1 := (fun x v => Host.reduce IntOp.andi x v reducesTo_S1024x64x256_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S256x96 .f32 := Host.absf main_arg3
  let main_cst_4 : FVec F S_ .f32 := constant S_ .f32 0x7F800000#32
  let main_v15 : FVec F S256x96 .f32 := broadcastInDim S256x96 ![] bcast_S_S256x96 main_cst_4
  let main_v16 : IVec S256x96 1 := cmpf .olt main_v14 main_v15
  fn_part1 (F := F) main_arg4 main_v13 main_v16
-- ==== Kernel.lean ====
abbrev S1024x64x256 : Shape := ⟨3, ![1024, 64, 256]⟩
abbrev S256x1024 : Shape := ⟨2, ![256, 1024]⟩
abbrev S1024 : Shape := ⟨1, ![1024]⟩
abbrev S256x96 : Shape := ⟨2, ![256, 96]⟩
abbrev S96 : Shape := ⟨1, ![96]⟩
abbrev S65536x256 : Shape := ⟨2, ![65536, 256]⟩
abbrev S1x1024 : Shape := ⟨2, ![1, 1024]⟩
abbrev S_ : Shape := ⟨0, ![]⟩
abbrev S256x128 : Shape := ⟨2, ![256, 128]⟩
abbrev S128 : Shape := ⟨1, ![128]⟩
abbrev S1x128 : Shape := ⟨2, ![1, 128]⟩
abbrev S1024x12x128 : Shape := ⟨3, ![1024, 12, 128]⟩
abbrev S4096x256 : Shape := ⟨2, ![4096, 256]⟩
abbrev S64x12x128 : Shape := ⟨3, ![64, 12, 128]⟩
abbrev S4096x1024 : Shape := ⟨2, ![4096, 1024]⟩
abbrev S4096x128 : Shape := ⟨2, ![4096, 128]⟩
abbrev S4096x24 : Shape := ⟨2, ![4096, 24]⟩
abbrev S64x64x12x2 : Shape := ⟨4, ![64, 64, 12, 2]⟩
abbrev S64x12x64x2 : Shape := ⟨4, ![64, 12, 64, 2]⟩
abbrev S1024x12x64x2 : Shape := ⟨4, ![1024, 12, 64, 2]⟩

abbrev nBuf : Space → Nat
  | .hbm => 18
  | .vmem => 8
  | .smem => 0
  | _ => 0

abbrev bufTy : (tb : Table) → Fin (tcTables nBuf tb) → BufTy
  | .hbm, ⟨0, _⟩ => ⟨S1024x64x256, .f32⟩
  | .hbm, ⟨1, _⟩ => ⟨S256x1024, .f32⟩
  | .hbm, ⟨2, _⟩ => ⟨S1024, .f32⟩
  | .hbm, ⟨3, _⟩ => ⟨S256x96, .f32⟩
  | .hbm, ⟨4, _⟩ => ⟨S96, .f32⟩
  | .hbm, ⟨5, _⟩ => ⟨S65536x256, .f32⟩
  | .hbm, ⟨6, _⟩ => ⟨S1x1024, .f32⟩
  | .hbm, ⟨7, _⟩ => ⟨S_, .i32⟩
  | .hbm, ⟨8, _⟩ => ⟨S_, .f32⟩
  | .hbm, ⟨9, _⟩ => ⟨S256x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S256x1024, .bf16⟩
  | .hbm, ⟨15, _⟩ => ⟨S256x128, .bf16⟩
  | .hbm, ⟨16, _⟩ => ⟨S1024x12x128, .f32⟩
  | .hbm, ⟨17, _⟩ => ⟨S1024x12x64x2, .f32⟩
  | .local _ .vmem, ⟨0, _⟩ => ⟨S4096x256, .f32⟩
  | .local _ .vmem, ⟨1, _⟩ => ⟨S4096x256, .f32⟩
  | .local _ .vmem, ⟨2, _⟩ => ⟨S256x1024, .bf16⟩
  | .local _ .vmem, ⟨3, _⟩ => ⟨S1x1024, .f32⟩
  | .local _ .vmem, ⟨4, _⟩ => ⟨S256x128, .bf16⟩
  | .local _ .vmem, ⟨5, _⟩ => ⟨S1x128, .f32⟩
  | .local _ .vmem, ⟨6, _⟩ => ⟨S64x12x128, .f32⟩
  | .local _ .vmem, ⟨7, _⟩ => ⟨S64x12x128, .f32⟩
  | _, _ => ⟨S1024x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x12x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024x64x256_S65536x256 : S1024x64x256.ShapeCasts S65536x256
  shapeCasts_S1024_S1x1024 : S1024.ShapeCasts S1x1024
  pads_S256x96_S256x128_000_0320 : S256x96.Pads (![0, 0] : Fin 2 → Nat) ![0, 32] ![0, 0] S256x128
  h_S_ : 0 < S_.numel
  pads_S96_S128_0320 : S96.Pads (![0] : Fin 1 → Nat) ![32] ![0] S128
  shapeCasts_S128_S1x128 : S128.ShapeCasts S1x128
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S4096x1024 : S1x1024.Broadcasts S4096x1024
  slices_S4096x1024_o0_0_S4096x256 : S4096x1024.Slices ![0, 0] S4096x256
  slices_S4096x1024_o0_512_S4096x256 : S4096x1024.Slices ![0, 512] S4096x256
  slices_S4096x1024_o0_768_S4096x256 : S4096x1024.Slices ![0, 768] S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S4096x128_o0_0_S4096x24 : S4096x128.Slices ![0, 0] S4096x24
  slices_S4096x128_o0_48_S4096x24 : S4096x128.Slices ![0, 48] S4096x24
  slices_S4096x128_o0_72_S4096x24 : S4096x128.Slices ![0, 72] S4096x24
  shapeCasts_S4096x24_S64x64x12x2 : S4096x24.ShapeCasts S64x64x12x2
  transposes_S64x64x12x2_p0_2_1_3_S64x12x64x2 : S64x64x12x2.Transposes [0, 2, 1, 3] S64x12x64x2
  shapeCasts_S64x12x64x2_S64x12x128 : S64x12x64x2.ShapeCasts S64x12x128
  inb_S64x12x128_S64x12x128_0_0_0 : ∀ a, (![0, 0, 0] : Fin 3 → Nat) a + S64x12x128.size a ≤ S64x12x128.size a
  h_S64x12x128 : 0 < S64x12x128.numel
  shapeCasts_S1024x12x128_S1024x12x64x2 : S1024x12x128.ShapeCasts S1024x12x64x2
  dot_S4096x256_S256x1024_S4096x1024_1_0_0_1_n_n_wf : DotDims.WF S4096x256 S256x1024 S4096x1024 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x12x128.size a ≤ S1024x12x128.size a
  hwx0_5 : ∀ i : grid0.Coords, EltTy.bits .f32 = 32 ∨ (Rect.block (s := S1024x12x128) S64x12x128.size (cc0_transform_5 i) (hinb0_5 i)).WholeWords (EltTy.packing .f32)

variable [Facts₀]

def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x12x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x64x256 : Shape := ⟨3, ![1024, 64, 256]⟩
abbrev S256x1024 : Shape := ⟨2, ![256, 1024]⟩
abbrev S1024 : Shape := ⟨1, ![1024]⟩
abbrev S256x96 : Shape := ⟨2, ![256, 96]⟩
abbrev S96 : Shape := ⟨1, ![96]⟩
abbrev S65536x256 : Shape := ⟨2, ![65536, 256]⟩
abbrev S65536x1024 : Shape := ⟨2, ![65536, 1024]⟩
abbrev S1x1024 : Shape := ⟨2, ![1, 1024]⟩
abbrev S_ : Shape := ⟨0, ![]⟩
abbrev S65536x96 : Shape := ⟨2, ![65536, 96]⟩
abbrev S1x96 : Shape := ⟨2, ![1, 96]⟩
abbrev S65536x24 : Shape := ⟨2, ![65536, 24]⟩
abbrev S1024x64x12x2 : Shape := ⟨4, ![1024, 64, 12, 2]⟩
abbrev S1024x12x64x2 : Shape := ⟨4, ![1024, 12, 64, 2]⟩

abbrev nBuf : Space → Nat
  | .hbm => 62
  | .vmem => 0
  | .smem => 0
  | _ => 0

abbrev bufTy : (tb : Table) → Fin (tcTables nBuf tb) → BufTy
  | .hbm, ⟨0, _⟩ => ⟨S1024x64x256, .f32⟩
  | .hbm, ⟨1, _⟩ => ⟨S256x1024, .f32⟩
  | .hbm, ⟨2, _⟩ => ⟨S1024, .f32⟩
  | .hbm, ⟨3, _⟩ => ⟨S256x96, .f32⟩
  | .hbm, ⟨4, _⟩ => ⟨S96, .f32⟩
  | .hbm, ⟨5, _⟩ => ⟨S65536x256, .f32⟩
  | .hbm, ⟨6, _⟩ => ⟨S65536x1024, .f32⟩
  | .hbm, ⟨7, _⟩ => ⟨S1x1024, .f32⟩
  | .hbm, ⟨8, _⟩ => ⟨S65536x1024, .f32⟩
  | .hbm, ⟨9, _⟩ => ⟨S65536x1024, .f32⟩
  | .hbm, ⟨10, _⟩ => ⟨S65536x256, .f32⟩
  | .hbm, ⟨11, _⟩ => ⟨S65536x256, .f32⟩
  | .hbm, ⟨12, _⟩ => ⟨S65536x256, .f32⟩
  | .hbm, ⟨13, _⟩ => ⟨S_, .f32⟩
  | .hbm, ⟨14, _⟩ => ⟨S65536x256, .f32⟩
  | .hbm, ⟨15, _⟩ => ⟨S65536x256, .f32⟩
  | .hbm, ⟨16, _⟩ => ⟨S_, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S65536x256, .f32⟩
  | .hbm, ⟨24, _⟩ => ⟨S_, .f32⟩
  | .hbm, ⟨25, _⟩ => ⟨S65536x256, .f32⟩
  | .hbm, ⟨26, _⟩ => ⟨S65536x256, .f32⟩
  | .hbm, ⟨27, _⟩ => ⟨S_, .f32⟩
  | .hbm, ⟨28, _⟩ => ⟨S65536x256, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S65536x96, .f32⟩
  | .hbm, ⟨34, _⟩ => ⟨S1x96, .f32⟩
  | .hbm, ⟨35, _⟩ => ⟨S65536x96, .f32⟩
  | .hbm, ⟨36, _⟩ => ⟨S65536x96, .f32⟩
  | .hbm, ⟨37, _⟩ => ⟨S65536x24, .f32⟩
  | .hbm, ⟨38, _⟩ => ⟨S65536x24, .f32⟩
  | .hbm, ⟨39, _⟩ => ⟨S65536x24, .f32⟩
  | .hbm, ⟨40, _⟩ => ⟨S_, .f32⟩
  | .hbm, ⟨41, _⟩ => ⟨S65536x24, .f32⟩
  | .hbm, ⟨42, _⟩ => ⟨S65536x24, .f32⟩
  | .hbm, ⟨43, _⟩ => ⟨S_, .f32⟩
  | .hbm, ⟨44, _⟩ => ⟨S65536x24, .f32⟩
  | .hbm, ⟨45, _⟩ => ⟨S65536x24, .f32⟩
  | .hbm, ⟨46, _⟩ => ⟨S65536x24, .f32⟩
  | .hbm, ⟨47, _⟩ => ⟨S65536x24, .f32⟩
  | .hbm, ⟨48, _⟩ => ⟨S65536x24, .f32⟩
  | .hbm, ⟨49, _⟩ => ⟨S65536x24, .f32⟩
  | .hbm, ⟨50, _⟩ => ⟨S65536x24, .f32⟩
  | .hbm, ⟨51, _⟩ => ⟨S_, .f32⟩
  | .hbm, ⟨52, _⟩ => ⟨S65536x24, .f32⟩
  | .hbm, ⟨53, _⟩ => ⟨S65536x24, .f32⟩
  | .hbm, ⟨54, _⟩ => ⟨S_, .f32⟩
  | .hbm, ⟨55, _⟩ => ⟨S65536x24, .f32⟩
  | .hbm, ⟨56, _⟩ => ⟨S65536x24, .f32⟩
  | .hbm, ⟨57, _⟩ => ⟨S65536x24, .f32⟩
  | .hbm, ⟨58, _⟩ => ⟨S65536x24, .f32⟩
  | .hbm, ⟨59, _⟩ => ⟨S65536x24, .f32⟩
  | .hbm, ⟨60, _⟩ => ⟨S1024x64x12x2, .f32⟩
  | .hbm, ⟨61, _⟩ => ⟨S1024x12x64x2, .f32⟩
  | _, _ => ⟨S1024x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]

class Facts₀ : Prop where
  shapeCasts_S1024x64x256_S65536x256 : S1024x64x256.ShapeCasts S65536x256
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  slices_S65536x1024_S65536x256_0_0 : S65536x1024.Slices ![0, 0] S65536x256
  bcast_S_S65536x256 : S_.BroadcastsInDim S65536x256 (![] : Fin 0 → Fin S65536x256.rank)
  slices_S65536x1024_S65536x256_0_512 : S65536x1024.Slices ![0, 512] S65536x256
  slices_S65536x1024_S65536x256_0_768 : S65536x1024.Slices ![0, 768] S65536x256
  bcast_S96_S1x96_1 : S96.BroadcastsInDim S1x96 (![1] : Fin 1 → Fin S1x96.rank)
  bcast_S1x96_S65536x96_0_1 : S1x96.BroadcastsInDim S65536x96 (![0, 1] : Fin 2 → Fin S65536x96.rank)
  slices_S65536x96_S65536x24_0_0 : S65536x96.Slices ![0, 0] S65536x24
  bcast_S_S65536x24 : S_.BroadcastsInDim S65536x24 (![] : Fin 0 → Fin S65536x24.rank)
  slices_S65536x96_S65536x24_0_48 : S65536x96.Slices ![0, 48] S65536x24
  slices_S65536x96_S65536x24_0_72 : S65536x96.Slices ![0, 72] S65536x24
  shapeCasts_S65536x24_S1024x64x12x2 : S65536x24.ShapeCasts S1024x64x12x2
  transposes_S1024x64x12x2_S1024x12x64x2_0_2_1_3 : S1024x64x12x2.Transposes [0, 2, 1, 3] S1024x12x64x2
  dot_S65536x256_S256x1024_S65536x1024_1_0_0_1_n_n_wf : DotDims.WF S65536x256 S256x1024 S65536x1024 [1] [0] [0] [1] [] []
  dot_S65536x256_S256x96_S65536x96_1_0_0_1_n_n_wf : DotDims.WF S65536x256 S256x96 S65536x96 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x256_S256x96_S65536x96_1_0_0_1_n_n : DotDims S65536x256 S256x96 S65536x96 where
  lhsContracting := [1]
  rhsContracting := [0]
  lhsNonContracting := [0]
  rhsNonContracting := [1]
  lhsBatch := []
  rhsBatch := []
  wf := dot_S65536x256_S256x96_S65536x96_1_0_0_1_n_n_wf

class Facts : Prop extends Facts₀ where

variable [Facts]
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRows.lean ====
import Idealize.ShloMosaic.Lib.ValueIdx
import Idealize.ShloMosaic.Lib.ValueLayout
import Idealize.ShloMosaic.Lib.Pipeline.Value
import Idealize.ShloMosaic.PureOps.Ideal.Laws
import proofs.«176968_j64450279243825_2_alg».proof.Proof.LibPlainDot
import proofs.«176968_j64450279243825_2_alg».proof.Proof.LibColumn

/-!
# Row-wise layers

Every dense stage of the network acts on each row of an `[N, C]` array by itself: a row times a weight matrix, a
bias row added, the row scaled to unit length (divided by the larger of its Euclidean norm and a floor), a
`tanh` of every entry. `mapRows f A` applies a function `f` of one row to every row of `A`. A stage computed on a
tile of rows is therefore the same stage computed on the whole array and read on the tile: the value at row `n`
only sees row `n` of the operand.

The lemmas below read the vector unit's spelling of each stage (a matrix product into a zero accumulator, a
lane sum, a column broadcast) at an index `(p, q)`, over any number of rows.
-/

noncomputable section

namespace Cert.Rows

open Idealize.ShloMosaic Idealize.ShloMosaic.ValueIdx
open scoped BigOperators

abbrev S2 (a b : ℕ) : Shape := ⟨2, ![a, b]⟩
abbrev S1 (a : ℕ) : Shape := ⟨1, ![a]⟩

/-- Apply a function of one row to every row. -/
def mapRows {N Ci C : ℕ} (f : (Fin Ci → EReal) → Fin C → EReal) (A : (S2 N Ci).Idx → EReal) : (S2 N C).Idx → EReal :=
  fun i => f (fun k => A (ix2 (i 0) k)) (i 1)

theorem mapRows_ix2 {N Ci C : ℕ} (f : (Fin Ci → EReal) → Fin C → EReal) (A : (S2 N Ci).Idx → EReal) (n : Fin N) (q : Fin C) :
    mapRows f A (ix2 n q) = f (fun k => A (ix2 n k)) q := rfl

/-- A row times a weight matrix. -/
def lin {Ci C : ℕ} (w : (S2 Ci C).Idx → EReal) (r : Fin Ci → EReal) : Fin C → EReal :=
  fun q => ∑ k : Fin Ci, r k * w (ix2 k q)

/-- A bias row (kept as a one-row matrix) added to a row. -/
def addRow {C : ℕ} (b : (S2 1 C).Idx → EReal) (r : Fin C → EReal) : Fin C → EReal :=
  fun q => r q + b (ix2 (0 : Fin 1) q)

/-- The floor under a row's norm: the single-precision number nearest 1e-12, read exactly. -/
def floorNorm : EReal := Ideal.ofBits .f32 0x2B8CBCCC#32

/-- A row divided by the larger of its Euclidean norm and the floor. -/
def unit {C : ℕ} (r : Fin C → EReal) : Fin C → EReal :=
  fun q => Ideal.div (r q) (max (Ideal.sqrt (∑ k : Fin C, r k * r k)) floorNorm)

/-- `tanh` of every entry of a row. -/
def th {C : ℕ} (r : Fin C → EReal) : Fin C → EReal := fun q => Ideal.tanh (r q)

/-- A tile of rows `o, o+1, …` of `A` goes to the same rows of `mapRows f A`. -/
theorem mapRows_tile {N R Ci C : ℕ} (f : (Fin Ci → EReal) → Fin C → EReal) (A : (S2 N Ci).Idx → EReal)
    (X : (S2 R Ci).Idx → EReal) (o : ℕ) (ho : ∀ p : Fin R, o + p.val < N)
    (hX : ∀ (p : Fin R) (k : Fin Ci), X (ix2 p k) = A (ix2 ⟨o + p.val, ho p⟩ k)) (p : Fin R) (q : Fin C) :
    mapRows f X (ix2 p q) = mapRows f A (ix2 ⟨o + p.val, ho p⟩ q) := by
  rw [mapRows_ix2, mapRows_ix2]
  exact congrArg (fun r => f r q) (funext fun k => hX p k)

/-! ## The vector unit's spellings at an index -/

section Unit

variable {N C : ℕ}

/-- The matrix product of a tile of rows with a weight matrix, into a zero accumulator. -/
theorem matmul_rows {K : ℕ} (d : DotDims (S2 N K) (S2 K C) (S2 N C)) (hd : Cert.LibPlainDot.Plain d)
    (x : FVec Ideal (S2 N K) .f32) (w : FVec Ideal (S2 K C) .f32) :
    matmul d none x w (constant (S2 N C) .f32 0x00000000#32) = mapRows (lin w) x := by
  funext i
  obtain ⟨p, q, rfl⟩ : ∃ (p : Fin N) (q : Fin C), i = ix2 p q := ⟨i 0, i 1, eq_ix2 i⟩
  exact Cert.LibPlainDot.matmul_zero_apply d hd none x w p q

/-- A tile plus a bias row repeated down the tile. -/
theorem addBias_rows (x : FVec Ideal (S2 N C) .f32) (b : FVec Ideal (S2 1 C) .f32)
    (h2 : (S2 1 C).ShapeCasts (S2 1 C)) (h3 : (S2 1 C).Broadcasts (S2 N C)) :
    addf x (broadcastTo (S2 N C) (shapeCast (S2 1 C) b h2) h3) = mapRows (addRow b) x := by
  funext i
  obtain ⟨p, q, rfl⟩ : ∃ (p : Fin N) (q : Fin C), i = ix2 p q := ⟨i 0, i 1, eq_ix2 i⟩
  rw [shapeCast_self, mapRows_ix2]
  show x (ix2 p q) + broadcastTo (S2 N C) b h3 (ix2 p q) = _
  rw [broadcastTo_1b_ab_apply]
  rfl

/-- A tile whose every row is divided by the larger of its norm and the floor: the squares summed along the
    lanes, the sums kept as a column, the column's square root floored and repeated across the row. -/
theorem unit_rows (y : FVec Ideal (S2 N C) .f32) (hr : (S2 N C).Reduces [1] (S1 N)) (hφ : FKind.Formats .f32)
    (hacc : (0x00000000#32 : BitVec 32) = FKind.add.neutral .f32 hφ)
    (hc : (S1 N).ShapeCasts (S2 N 1)) (hb : (S2 N 1).Broadcasts (S2 N C)) :
    divf y (broadcastTo (S2 N C) (maximumf (sqrt (shapeCast (S2 N 1) (multiReduction .add [1] (S1 N) (mulf y y) 0x00000000#32 hr hφ hacc) hc))
      (broadcast (S2 N 1) (Scalar.ofBits .f32 0x2B8CBCCC#32))) hb) = mapRows unit y := by
  funext i
  obtain ⟨p, q, rfl⟩ : ∃ (p : Fin N) (q : Fin C), i = ix2 p q := ⟨i 0, i 1, eq_ix2 i⟩
  rw [mapRows_ix2]
  show Ideal.div (y (ix2 p q)) (broadcastTo (S2 N C) _ hb (ix2 p q)) = _
  rw [Cert.LibColumn.broadcastTo_a1_ab_apply]
  show Ideal.div (y (ix2 p q)) (max (Ideal.sqrt (shapeCast (S2 N 1) _ hc (ix2 p (0 : Fin 1)))) floorNorm) = _
  rw [Cert.LibColumn.shapeCast_a_a1_apply]
  refine congrArg (fun s => Ideal.div (y (ix2 p q)) (max (Ideal.sqrt s) floorNorm)) ?_
  refine (Ideal.multiReduction_add_single (mulf y y) 0x00000000#32 hr hφ hacc (ix1 p)).trans ?_
  refine Finset.sum_congr rfl fun k _ => ?_
  have e : hr.lift (ix1 p) k = ix2 p k := funext fun a => Fin.ext (by
    match a with
    | ⟨0, _⟩ => rfl
    | ⟨1, _⟩ => rfl)
  rw [e]
  rfl

/-- `tanh` of a tile. -/
theorem tanh_rows (y : FVec Ideal (S2 N C) .f32) : tanh y = mapRows (C := C) th y := by
  funext i
  obtain ⟨p, q, rfl⟩ : ∃ (p : Fin N) (q : Fin C), i = ix2 p q := ⟨i 0, i 1, eq_ix2 i⟩
  rfl

/-- One row-wise stage after another is one row-wise stage. -/
theorem mapRows_comp {Ci Cm : ℕ} (g : (Fin Cm → EReal) → Fin C → EReal) (f : (Fin Ci → EReal) → Fin Cm → EReal)
    (A : (S2 N Ci).Idx → EReal) : mapRows g (mapRows f A) = mapRows (fun r => g (f r)) A := rfl

/-! ## The seven tile bodies, as written by the compiler -/

/-- A linear tile whose operand passes through an identity re-shape first. -/
theorem body_lin {K : ℕ} (d : DotDims (S2 N K) (S2 K C) (S2 N C)) (hd : Cert.LibPlainDot.Plain d)
    (x : FVec Ideal (S2 N K) .f32) (w : FVec Ideal (S2 K C) .f32) (h1 : (S2 N K).ShapeCasts (S2 N K)) :
    matmul d none (shapeCast (S2 N K) x h1) w (constant (S2 N C) .f32 0x00000000#32) = mapRows (lin w) x := by
  rw [shapeCast_self]; exact matmul_rows d hd x w

/-- Bias, then `tanh`. -/
theorem body_bias_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C)) :
    tanh (addf (shapeCast (S2 N C) x h1) (broadcastTo (S2 N C) (shapeCast (S2 1 C) b h2) h3))
      = mapRows (fun r => th (addRow b r)) x := by
  rw [shapeCast_self x, addBias_rows, tanh_rows]; rfl

/-- Bias, then unit length. -/
theorem body_bias_unit (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb)
      = mapRows (fun r => unit (addRow b r)) x := by
  rw [shapeCast_self x, addBias_rows, unit_rows]; rfl

/-- Bias, then unit length, then `tanh`. -/
theorem body_bias_unit_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    tanh (divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb))
      = mapRows (fun r => th (unit (addRow b r))) x := by
  rw [body_bias_unit x b h1 h2 h3 hr hφ hacc hc hb, tanh_rows]; rfl

/-- A linear tile, bias, then unit length. -/
theorem body_lin_bias_unit {K : ℕ} (d : DotDims (S2 N K) (S2 K C) (S2 N C)) (hd : Cert.LibPlainDot.Plain d)
    (x : FVec Ideal (S2 N K) .f32) (w : FVec Ideal (S2 K C) .f32) (b : FVec Ideal (S2 1 C) .f32) (h1 : (S2 N K).ShapeCasts (S2 N K))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (matmul d none (shapeCast (S2 N K) x h1) w (constant (S2 N C) .f32 0x00000000#32)) (broadcastTo (S2 N C) (shapeCast (S2 1 C) b h2) h3))
      (broadcastTo (S2 N C) (maximumf (sqrt (shapeCast (S2 N 1) (multiReduction .add [1] (S1 N)
        (mulf (addf (matmul d none (shapeCast (S2 N K) x h1) w (constant (S2 N C) .f32 0x00000000#32)) (broadcastTo (S2 N C) (shapeCast (S2 1 C) b h2) h3))
          (addf (matmul d none (shapeCast (S2 N K) x h1) w (constant (S2 N C) .f32 0x00000000#32)) (broadcastTo (S2 N C) (shapeCast (S2 1 C) b h2) h3))) 0x00000000#32 hr hφ hacc) hc))
        (broadcast (S2 N 1) (Scalar.ofBits .f32 0x2B8CBCCC#32))) hb)
      = mapRows (fun r => unit (addRow b (lin w r))) x := by
  rw [body_lin d hd x w h1, addBias_rows, unit_rows]; rfl

end Unit

end Cert.Rows

end
-- ==== Proof.LibHostRows.lean ====
import proofs.«176968_j64450279243825_2_alg».proof.Proof.LibRows

/-!
# The host's spellings of the row-wise stages

The same stages as in `LibRows`, as a host program writes them on a whole `[N, C]` array: a `dot_general` with
the weights, a bias vector broadcast to one row and then down the rows, a host sum of squares along axis 1 kept as a
column, its square root floored by a broadcast scalar and broadcast back across the row, a host `tanh`. Each is
`mapRows` of the corresponding function of one row, whatever `N` is — so the host's whole-array stage and a
tiled stage agree row by row.
-/

noncomputable section

namespace Cert.Rows

open Idealize.ShloMosaic Idealize.ShloMosaic.ValueIdx
open scoped BigOperators

abbrev S0 : Shape := ⟨0, ![]⟩

variable {N C : ℕ}

/-- The host's product of the whole array with a weight matrix. -/
theorem host_lin {K : ℕ} (d : DotDims (S2 N K) (S2 K C) (S2 N C)) (hd : Cert.LibPlainDot.Plain d)
    (x : FVec Ideal (S2 N K) .f32) (w : FVec Ideal (S2 K C) .f32) :
    Host.dotGeneral d none x w = mapRows (lin w) x := by
  funext i
  obtain ⟨p, q, rfl⟩ : ∃ (p : Fin N) (q : Fin C), i = ix2 p q := ⟨i 0, i 1, eq_ix2 i⟩
  simp only [Host.dotGeneral]
  exact Cert.LibPlainDot.dotGeneral_apply d hd none _ x w p q

/-- The host adds a bias VECTOR, broadcast to one row and then down the rows: the same as adding the vector kept
    as a one-row matrix. -/
theorem host_bias (A : FVec Ideal (S2 N C) .f32) (b : FVec Ideal (S1 C) .f32)
    (h1 : (S1 C).BroadcastsInDim (S2 1 C) ![1]) (h2 : (S2 1 C).BroadcastsInDim (S2 N C) ![0, 1])
    (hc : (S1 C).ShapeCasts (S2 1 C)) :
    addf A (broadcastInDim (S2 N C) ![0, 1] h2 (broadcastInDim (S2 1 C) ![1] h1 b))
      = mapRows (addRow (shapeCast (S2 1 C) b hc)) A := by
  funext i
  obtain ⟨p, q, rfl⟩ : ∃ (p : Fin N) (q : Fin C), i = ix2 p q := ⟨i 0, i 1, eq_ix2 i⟩
  rw [mapRows_ix2]
  show A (ix2 p q) + broadcastInDim (S2 N C) ![0, 1] h2 (broadcastInDim (S2 1 C) ![1] h1 b) (ix2 p q)
    = A (ix2 p q) + shapeCast (S2 1 C) b hc (ix2 (0 : Fin 1) q)
  have hq : q.val = if C = 1 then 0 else q.val := by
    split
    · have := q.isLt; omega
    · rfl
  rw [shapeCast_a_1a_apply,
    broadcastInDim_apply ![0, 1] h2 _ (ix2 p q) (ix2 (0 : Fin 1) q) (fun a => by
      match a with
      | ⟨0, _⟩ => rfl
      | ⟨1, _⟩ => exact hq),
    broadcastInDim_apply ![1] h1 b (ix2 (0 : Fin 1) q) (ix1 q) (fun a => by
      match a with
      | ⟨0, _⟩ => exact hq)]

/-- The host divides every row by the larger of its norm and the floor. -/
theorem host_unit (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) :
    Host.divf Y (broadcastInDim (S2 N C) ![0, 1] hb1 (maximumf
      (Host.sqrt (broadcastInDim (S2 N 1) ![0] hb0 (Host.reduceAdd (mulf Y Y) (constant S0 .f32 0x00000000#32) hred hu)))
      (broadcastInDim (S2 N 1) ![] hbe (constant S0 .f32 0x2B8CBCCC#32)))) = mapRows unit Y := by
  funext i
  obtain ⟨p, q, rfl⟩ : ∃ (p : Fin N) (q : Fin C), i = ix2 p q := ⟨i 0, i 1, eq_ix2 i⟩
  rw [mapRows_ix2]
  have hp : p.val = if N = 1 then 0 else p.val := by
    split
    · have := p.isLt; omega
    · rfl
  show Ideal.div (Y (ix2 p q)) (broadcastInDim (s := S2 N 1) (S2 N C) ![0, 1] hb1 _ (ix2 p q)) = _
  rw [broadcastInDim_apply ![0, 1] hb1 _ (ix2 p q) (ix2 p (0 : Fin 1)) (fun a => by
      match a with
      | ⟨0, _⟩ => exact hp
      | ⟨1, _⟩ => rfl)]
  show Ideal.div (Y (ix2 p q)) (max (Ideal.sqrt (broadcastInDim (s := S1 N) (S2 N 1) ![0] hb0 _ (ix2 p (0 : Fin 1))))
    (broadcastInDim (s := S0) (S2 N 1) ![] hbe (constant (F := Ideal) S0 .f32 0x2B8CBCCC#32) (ix2 p (0 : Fin 1)))) = _
  rw [broadcastInDim_apply ![0] hb0 _ (ix2 p (0 : Fin 1)) (ix1 p) (fun a => by
      match a with
      | ⟨0, _⟩ => exact hp),
    broadcastInDim_apply ![] hbe _ (ix2 p (0 : Fin 1)) ix0 (fun a => a.elim0)]
  refine congrArg (fun s => Ideal.div (Y (ix2 p q)) (max (Ideal.sqrt s) floorNorm)) ?_
  show Ideal.hostReduceAdd hred (mulf Y Y) (Ideal.ofBits .f32 0x00000000#32) (ix1 p) = _
  rw [Ideal.hostReduceAdd_single hred hr, Ideal.ofBits_zero_f32, zero_add]
  refine Finset.sum_congr rfl fun k _ => ?_
  have e : hr.lift (ix1 p) k = ix2 p k := funext fun a => Fin.ext (by
    match a with
    | ⟨0, _⟩ => rfl
    | ⟨1, _⟩ => rfl)
  rw [e]
  rfl

/-- The host's `tanh` of the whole array. -/
theorem host_tanh (Y : FVec Ideal (S2 N C) .f32) : Host.tanh Y = mapRows (C := C) th Y := by
  funext i
  obtain ⟨p, q, rfl⟩ : ∃ (p : Fin N) (q : Fin C), i = ix2 p q := ⟨i 0, i 1, eq_ix2 i⟩
  rfl

/-- Three row-wise stages in a row are one. -/
theorem mapRows_comp3 {Ci Ca Cb : ℕ} (h : (Fin Cb → EReal) → Fin C → EReal) (g : (Fin Ca → EReal) → Fin Cb → EReal)
    (f : (Fin Ci → EReal) → Fin Ca → EReal) (A : (S2 N Ci).Idx → EReal) :
    mapRows h (mapRows g (mapRows f A)) = mapRows (fun r => h (g (f r))) A := rfl

end Cert.Rows

end
-- ==== Proof.LibGateRows.lean ====
import Idealize.ShloMosaic.Lib.IdealHost
import proofs.«176968_j64450279243825_2_alg».proof.Proof.LibRows
import proofs.«176968_j64450279243825_2_alg».proof.Proof.LibHostRows

/-!
# A gated recurrent step with zero initial state, row by row

With zero initial state a gated recurrent cell acts on each row of its input by itself. The row is multiplied into a
weight matrix and a bias row is added, giving a pre-activation row `z` that packs several gates side by side; with
`σ` the logistic function the new hidden row is

  `h j = σ (z (oo + j)) · tanh (σ (z j) · tanh (z (og + j)))`,

the input gate read at the columns from `0`, the candidate from `og`, the output gate from `oo` (the forget gate
multiplies the zero state and is never read). Only these columns of `z` matter, so a weight matrix padded with further
columns gives the same row.

The lemmas read the vector unit's spelling (a column slice, `logistic`, `tanh`, products) and the host's spelling
(the logistic function written `1 / (1 + exp (-x))`) of the gate as `mapRows` of one row function, over any number
of rows.
-/

noncomputable section

namespace Cert.GateRows

open Idealize.ShloMosaic Idealize.ShloMosaic.ValueIdx Cert.Rows
open scoped BigOperators

variable {N C H : ℕ}

/-- The `H` columns of a row from column `o` on. -/
def cols (o : ℕ) (h : o + H ≤ C) (z : Fin C → EReal) : Fin H → EReal :=
  fun j => z ⟨o + j.val, Nat.lt_of_lt_of_le (Nat.add_lt_add_left j.isLt o) h⟩

/-- The hidden row from a pre-activation row: input gate at `0`, candidate at `og`, output gate at `oo`. -/
def gate (og oo : ℕ) (hi : 0 + H ≤ C) (hg : og + H ≤ C) (ho : oo + H ≤ C) (z : Fin C → EReal) : Fin H → EReal :=
  fun j => Ideal.logistic (cols oo ho z j) * Ideal.tanh (Ideal.logistic (cols 0 hi z j) * Ideal.tanh (cols og hg z j))

/-- One whole step on a row: the row times the weights, plus the bias row, through the gate. -/
def cell {K : ℕ} (og oo : ℕ) (hi : 0 + H ≤ C) (hg : og + H ≤ C) (ho : oo + H ≤ C)
    (w : (S2 K C).Idx → EReal) (b : (S2 1 C).Idx → EReal) (r : Fin K → EReal) : Fin H → EReal :=
  gate og oo hi hg ho (addRow b (lin w r))

/-- The gate only reads the three column windows: two pre-activation rows that agree there give one hidden row. -/
theorem gate_congr {C' : ℕ} (og oo : ℕ) (hi : 0 + H ≤ C) (hg : og + H ≤ C) (ho : oo + H ≤ C)
    (hi' : 0 + H ≤ C') (hg' : og + H ≤ C') (ho' : oo + H ≤ C') (z : Fin C → EReal) (z' : Fin C' → EReal)
    (hz : ∀ (n : ℕ) (h : n < C) (h' : n < C'), n < oo + H → z ⟨n, h⟩ = z' ⟨n, h'⟩) (hgo : og ≤ oo) :
    gate og oo hi hg ho z = gate og oo hi' hg' ho' z' := by
  funext j
  have hj := j.isLt
  unfold gate cols
  rw [hz (oo + j.val) _ _ (by omega), hz (0 + j.val) _ _ (by omega), hz (og + j.val) _ _ (by omega)]

/-- A step through weights and a bias row that were padded with further columns is the step through the originals. -/
theorem cell_pad {K C' : ℕ} (og oo : ℕ) (hi : 0 + H ≤ C) (hg : og + H ≤ C) (ho : oo + H ≤ C)
    (hi' : 0 + H ≤ C') (hg' : og + H ≤ C') (ho' : oo + H ≤ C') (hgo : og ≤ oo)
    (w : (S2 K C).Idx → EReal) (b : (S2 1 C).Idx → EReal) (w' : (S2 K C').Idx → EReal) (b' : (S2 1 C').Idx → EReal)
    (hw : ∀ (k : Fin K) (n : ℕ) (h : n < C) (h' : n < C'), w (ix2 k ⟨n, h⟩) = w' (ix2 k ⟨n, h'⟩))
    (hb : ∀ (n : ℕ) (h : n < C) (h' : n < C'), b (ix2 (0 : Fin 1) ⟨n, h⟩) = b' (ix2 (0 : Fin 1) ⟨n, h'⟩))
    (r : Fin K → EReal) :
    cell og oo hi hg ho w b r = cell og oo hi' hg' ho' w' b' r := by
  unfold cell
  refine gate_congr og oo hi hg ho hi' hg' ho' _ _ (fun n h h' _ => ?_) hgo
  unfold addRow lin
  rw [hb n h h']
  exact congrArg (· + b' (ix2 (0 : Fin 1) ⟨n, h'⟩)) (Finset.sum_congr rfl fun k _ => by rw [hw k n h h'])

/-! ## The vector unit's spellings -/

/-- A column slice of a tile is the same slice of every row. -/
theorem slice_rows (o : ℕ) (h : o + H ≤ C) (X : FVec Ideal (S2 N C) .f32) (hs : (S2 N C).Slices ![0, o] (S2 N H)) :
    extractStridedSlice (S2 N H) ![0, o] X hs = mapRows (cols o h) X := by
  funext i
  obtain ⟨p, q, rfl⟩ : ∃ (p : Fin N) (q : Fin H), i = ix2 p q := ⟨i 0, i 1, eq_ix2 i⟩
  exact slice2_axis1_apply o X hs p q _ rfl

/-- The gate as the vector unit writes it: three column slices, two logistic functions, two hyperbolic tangents and
    two products. -/
theorem unit_gate (og oo : ℕ) (hi : 0 + H ≤ C) (hg : og + H ≤ C) (ho : oo + H ≤ C) (Z : FVec Ideal (S2 N C) .f32)
    (si : (S2 N C).Slices ![0, 0] (S2 N H)) (sg : (S2 N C).Slices ![0, og] (S2 N H)) (so : (S2 N C).Slices ![0, oo] (S2 N H)) :
    mulf (logistic (extractStridedSlice (S2 N H) ![0, oo] Z so))
      (tanh (mulf (logistic (extractStridedSlice (S2 N H) ![0, 0] Z si)) (tanh (extractStridedSlice (S2 N H) ![0, og] Z sg))))
      = mapRows (gate og oo hi hg ho) Z := by
  rw [slice_rows oo ho Z so, slice_rows 0 hi Z si, slice_rows og hg Z sg]
  rfl

/-- The matrix product of a tile of rows, rounded to half precision on the way in, with a half-precision weight
    matrix, into a zero accumulator: every row times the weights (a change of format is the identity here). -/
theorem unit_lin {K : ℕ} (d : DotDims (S2 N K) (S2 K C) (S2 N C)) (hd : Cert.LibPlainDot.Plain d)
    (x : FVec Ideal (S2 N K) .f32) (w : FVec Ideal (S2 K C) .bf16) (hb : FTy.bits .bf16 < FTy.bits .f32) :
    matmul d none (truncf .bf16 x hb) w (constant (S2 N C) .f32 0x00000000#32) = mapRows (lin w) x := by
  funext i
  obtain ⟨p, q, rfl⟩ : ∃ (p : Fin N) (q : Fin C), i = ix2 p q := ⟨i 0, i 1, eq_ix2 i⟩
  exact Cert.LibPlainDot.matmul_zero_apply d hd none (truncf .bf16 x hb) w p q

/-! ## The host's spellings -/

/-- The host writes the logistic function out: one over one plus the exponential of the negated argument. -/
theorem host_logistic (Y : FVec Ideal (S2 N C) .f32) (hb : S0.BroadcastsInDim (S2 N C) ![]) :
    Host.divf (broadcastInDim (S2 N C) ![] hb (constant S0 .f32 0x3F800000#32))
      (addf (broadcastInDim (S2 N C) ![] hb (constant S0 .f32 0x3F800000#32)) (Host.exp (Host.negf Y)))
      = logistic Y := by
  funext i
  show Ideal.div (broadcastInDim (s := S0) (S2 N C) ![] hb (constant (F := Ideal) S0 .f32 0x3F800000#32) i)
    (broadcastInDim (s := S0) (S2 N C) ![] hb (constant (F := Ideal) S0 .f32 0x3F800000#32) i + Ideal.exp (-(Y i))) = Ideal.logistic (Y i)
  rw [broadcastInDim_apply ![] hb _ i ix0 (fun a => a.elim0)]
  show Ideal.div (Ideal.ofBits .f32 0x3F800000#32) (Ideal.ofBits .f32 0x3F800000#32 + Ideal.exp (-(Y i))) = Ideal.div 1 (1 + Ideal.exp (-(Y i)))
  rw [Ideal.ofBits_one_f32]

/-- The gate as the host writes it. -/
theorem host_gate (og oo : ℕ) (hi : 0 + H ≤ C) (hg : og + H ≤ C) (ho : oo + H ≤ C) (Z : FVec Ideal (S2 N C) .f32)
    (si : (S2 N C).Slices ![0, 0] (S2 N H)) (sg : (S2 N C).Slices ![0, og] (S2 N H)) (so : (S2 N C).Slices ![0, oo] (S2 N H))
    (hb : S0.BroadcastsInDim (S2 N H) ![]) :
    mulf (Host.divf (broadcastInDim (S2 N H) ![] hb (constant S0 .f32 0x3F800000#32))
        (addf (broadcastInDim (S2 N H) ![] hb (constant S0 .f32 0x3F800000#32)) (Host.exp (Host.negf (extractStridedSlice (S2 N H) ![0, oo] Z so)))))
      (Host.tanh (mulf (Host.divf (broadcastInDim (S2 N H) ![] hb (constant S0 .f32 0x3F800000#32))
        (addf (broadcastInDim (S2 N H) ![] hb (constant S0 .f32 0x3F800000#32)) (Host.exp (Host.negf (extractStridedSlice (S2 N H) ![0, 0] Z si)))))
        (Host.tanh (extractStridedSlice (S2 N H) ![0, og] Z sg))))
      = mapRows (gate og oo hi hg ho) Z := by
  rw [host_logistic, host_logistic, slice_rows oo ho Z so, slice_rows 0 hi Z si, slice_rows og hg Z sg]
  rfl

end Cert.GateRows

end
-- ==== Proof.LstmSpec.lean ====
import proofs.«176968_j64450279243825_2_alg».proof.Proof.LibGateRows

/-!
# Two chained single-step gated cells, and where their rows land

Every row of the `[T·B, 256]` input goes through two gated steps with zero initial state: the first with a
`[256, 1024]` weight matrix (gates of width 256: input at column 0, candidate at 512, output at 768), the second with
a `[256, 96]` one (gates of width 24: input at 0, candidate at 48, output at 72). The 24 numbers of row `t·64 + b`
are then laid out as `out[t, h, b, p] = row (t·64 + b) at column 2·h + p`.
-/

noncomputable section

namespace Cert.Lstm

open Idealize.ShloMosaic Idealize.ShloMosaic.ValueIdx Cert.Rows Cert.GateRows

/-- A bias vector kept as a one-row matrix. -/
def rowOf {C : ℕ} (b : (S1 C).Idx → EReal) : (S2 1 C).Idx → EReal := fun i => b (ix1 (i 1))

theorem shapeCast_rowOf {C : ℕ} (b : (S1 C).Idx → EReal) (hc : (S1 C).ShapeCasts (S2 1 C)) :
    shapeCast (S2 1 C) b hc = rowOf b := by
  funext i
  obtain ⟨u, q, rfl⟩ : ∃ (u : Fin 1) (q : Fin C), i = ix2 u q := ⟨i 0, i 1, eq_ix2 i⟩
  exact shapeCast_a_1a_apply b hc u q

/-- Both steps on one input row. -/
def rowOut (w1 : (S2 256 1024).Idx → EReal) (b1 : (S1 1024).Idx → EReal) (w2 : (S2 256 96).Idx → EReal)
    (b2 : (S1 96).Idx → EReal) (r : Fin 256 → EReal) : Fin 24 → EReal :=
  cell 48 72 (by omega) (by omega) (by omega) w2 (rowOf b2)
    (cell 512 768 (by omega) (by omega) (by omega) w1 (rowOf b1) r)

theorem rowOut_congr (w1 : (S2 256 1024).Idx → EReal) (b1 : (S1 1024).Idx → EReal) (w2 : (S2 256 96).Idx → EReal)
    (b2 : (S1 96).Idx → EReal) {r r' : Fin 256 → EReal} {q q' : Fin 24} (hr : r = r') (hq : q = q') :
    rowOut w1 b1 w2 b2 r q = rowOut w1 b1 w2 b2 r' q' := by
  subst hr hq; rfl

abbrev X3 : Shape := ⟨3, ![1024, 64, 256]⟩
abbrev O3 : Shape := ⟨3, ![1024, 12, 128]⟩
abbrev O4 : Shape := ⟨4, ![1024, 12, 64, 2]⟩

/-- The result with the batch and pair axes still merged into one axis of 128: entry `(t, h, l)` is row
    `t·64 + l / 2` at column `2·h + l % 2`. -/
def out3 (x : X3.Idx → EReal) (w1 : (S2 256 1024).Idx → EReal) (b1 : (S1 1024).Idx → EReal)
    (w2 : (S2 256 96).Idx → EReal) (b2 : (S1 96).Idx → EReal) : O3.Idx → EReal := fun i =>
  rowOut w1 b1 w2 b2
    (fun k => x (ix3 ⟨(i 0).val, (i 0).isLt⟩
      ⟨(i 2).val / 2, by have h2 : (i 2).val < 128 := (i 2).isLt; omega⟩ k))
    ⟨2 * (i 1).val + (i 2).val % 2, by have h1 : (i 1).val < 12 := (i 1).isLt; omega⟩

/-- The result: entry `(t, h, b, p)` is row `t·64 + b` at column `2·h + p`. -/
def out4 (x : X3.Idx → EReal) (w1 : (S2 256 1024).Idx → EReal) (b1 : (S1 1024).Idx → EReal)
    (w2 : (S2 256 96).Idx → EReal) (b2 : (S1 96).Idx → EReal) : O4.Idx → EReal := fun i =>
  rowOut w1 b1 w2 b2
    (fun k => x (ix3 ⟨(i 0).val, (i 0).isLt⟩ ⟨(i 2).val, (i 2).isLt⟩ k))
    ⟨2 * (i 1).val + (i 3).val, by
      have h1 : (i 1).val < 12 := (i 1).isLt; have h3 : (i 3).val < 2 := (i 3).isLt; omega⟩

/-- Splitting the merged axis of 128 into batch and pair gives the result. -/
theorem out4_of_out3 (x : X3.Idx → EReal) (w1 : (S2 256 1024).Idx → EReal) (b1 : (S1 1024).Idx → EReal)
    (w2 : (S2 256 96).Idx → EReal) (b2 : (S1 96).Idx → EReal) (h : O3.ShapeCasts O4) :
    shapeCast O4 (out3 x w1 b1 w2 b2) h = out4 x w1 b1 w2 b2 := by
  funext i
  obtain ⟨t, hh, b, p, rfl⟩ : ∃ (t : Fin 1024) (hh : Fin 12) (b : Fin 64) (p : Fin 2), i = ix4 t hh b p :=
    ⟨i 0, i 1, i 2, i 3, eq_ix4 i⟩
  have hb := b.isLt
  have hp := p.isLt
  refine (shapeCast_apply (out3 x w1 b1 w2 b2) h (ix4 t hh b p) (ix3 t hh ⟨2 * b.val + p.val, by omega⟩) (by
    rewrite [Shape.rowMajor_val_three, Shape.rowMajor_val_four]
    show (t.val * 12 + hh.val) * 128 + (2 * b.val + p.val) = ((t.val * 12 + hh.val) * 64 + b.val) * 2 + p.val
    omega)).trans ?_
  show rowOut w1 b1 w2 b2 (fun k => x (ix3 ⟨t.val, _⟩ ⟨(2 * b.val + p.val) / 2, _⟩ k)) ⟨2 * hh.val + (2 * b.val + p.val) % 2, _⟩
    = rowOut w1 b1 w2 b2 (fun k => x (ix3 ⟨t.val, _⟩ ⟨b.val, _⟩ k)) ⟨2 * hh.val + p.val, _⟩
  refine rowOut_congr w1 b1 w2 b2 (funext fun k => ?_) (Fin.ext ?_)
  · have e : (⟨(2 * b.val + p.val) / 2, by omega⟩ : Fin 64) = ⟨b.val, hb⟩ := Fin.ext (by show (2 * b.val + p.val) / 2 = b.val; omega)
    rw [e]
  · show 2 * hh.val + (2 * b.val + p.val) % 2 = 2 * hh.val + p.val
    omega

end Cert.Lstm

end
-- ==== Proof.KernelPayload.lean ====
import proofs.«176968_j64450279243825_2_alg».proof.Proof.Gen.KernelIdeal.Skeleton
import proofs.«176968_j64450279243825_2_alg».proof.Proof.LstmSpec

/-!
# What the kernel body stores, from the blocks it loads

The body takes a tile of 4096 input rows (64 time steps of 64 batch entries), runs both gated steps on every row
— the second through weights and a bias padded from 96 to 128 columns — and re-lays the `[4096, 24]` result out as
`[64, 12, 128]`: entry `(a, h, l)` is row `a·64 + l / 2` of the tile at column `2·h + l % 2`.
-/

noncomputable section

namespace Cert.Lstm

open Idealize.ShloMosaic Idealize.ShloMosaic.ValueIdx Cert.Rows Cert.GateRows
open Cert.KernelIdeal Cert.KernelIdeal.Gen

/-- The tile's re-layout: `[4096, 24] → [64, 64, 12, 2]`, the batch and gate-half axes swapped, the batch and pair
    axes merged. -/
def relay (Y : FVec Ideal S4096x24 .f32) : FVec Ideal S64x12x128 .f32 :=
  shapeCast S64x12x128 (transpose S64x12x64x2 [0, 2, 1, 3] (shapeCast S64x64x12x2 Y shapeCasts_S4096x24_S64x64x12x2)
    transposes_S64x64x12x2_p0_2_1_3_S64x12x64x2) shapeCasts_S64x12x64x2_S64x12x128

theorem relay_apply (Y : FVec Ideal S4096x24 .f32) (a : Fin 64) (h : Fin 12) (l : Fin 128) :
    relay Y (ix3 a h l) = Y (ix2 ⟨a.val * 64 + l.val / 2, by have := a.isLt; have := l.isLt; omega⟩
      ⟨2 * h.val + l.val % 2, by have := h.isLt; omega⟩) := by
  have ha := a.isLt
  have hh := h.isLt
  have hl := l.isLt
  unfold relay
  refine (shapeCast_apply _ shapeCasts_S64x12x64x2_S64x12x128 (ix3 a h l)
    (ix4 a h ⟨l.val / 2, by omega⟩ ⟨l.val % 2, by omega⟩) (by
      rewrite [Shape.rowMajor_val_four, Shape.rowMajor_val_three]
      show ((a.val * 12 + h.val) * 64 + l.val / 2) * 2 + l.val % 2 = (a.val * 12 + h.val) * 128 + l.val
      omega)).trans ?_
  refine (transpose_apply [0, 2, 1, 3] _ transposes_S64x64x12x2_p0_2_1_3_S64x12x64x2
    (ix4 a h ⟨l.val / 2, by omega⟩ ⟨l.val % 2, by omega⟩) (ix4 a ⟨l.val / 2, by omega⟩ h ⟨l.val % 2, by omega⟩)
    (fun b => match b with
      | ⟨0, _⟩ => rfl
      | ⟨1, _⟩ => rfl
      | ⟨2, _⟩ => rfl
      | ⟨3, _⟩ => rfl)).trans ?_
  exact shapeCast_apply Y shapeCasts_S4096x24_S64x64x12x2 _ _ (by
    rewrite [Shape.rowMajor_val_two, Shape.rowMajor_val_four]
    show (a.val * 64 + l.val / 2) * 24 + (2 * h.val + l.val % 2) = ((a.val * 64 + l.val / 2) * 12 + h.val) * 2 + l.val % 2
    omega)

/-- Both steps on a row of the tile, through the blocks the body loads: the second step's weights and bias row are the
    padded ones. -/
def tileRow (x1 : (S2 256 1024).Idx → EReal) (x2 : (S2 1 1024).Idx → EReal) (x3 : (S2 256 128).Idx → EReal)
    (x4 : (S2 1 128).Idx → EReal) (r : Fin 256 → EReal) : Fin 24 → EReal :=
  cell 48 72 (by omega) (by omega) (by omega) x3 x4 (cell 512 768 (by omega) (by omega) (by omega) x1 x2 r)

/-- The stored value is the re-layout of the two steps applied to every row of the input tile. -/
theorem pay_eq (x0 : FVec Ideal S4096x256 .f32) (x1 : FVec Ideal S256x1024 .bf16) (x2 : FVec Ideal S1x1024 .f32)
    (x3 : FVec Ideal S256x128 .bf16) (x4 : FVec Ideal S1x128 .f32) :
    k0_pay1 (F := Ideal) x0 x1 x2 x3 x4 = relay (mapRows (tileRow x1 x2 x3 x4) x0) := by
  unfold k0_pay1 relay
  dsimp only
  rw [shapeCast_self x0, shapeCast_self x1, shapeCast_self x3,
    unit_lin dot_S4096x256_S256x1024_S4096x1024_1_0_0_1_n_n ⟨rfl, rfl, rfl, rfl, rfl, rfl⟩ x0 x1,
    addBias_rows,
    unit_gate 512 768 (by omega) (by omega) (by omega),
    unit_lin dot_S4096x256_S256x128_S4096x128_1_0_0_1_n_n ⟨rfl, rfl, rfl, rfl, rfl, rfl⟩ _ x3,
    addBias_rows,
    unit_gate 48 72 (by omega) (by omega) (by omega)]
  rfl

end Cert.Lstm

end
-- ==== Proof.KernelTile.lean ====
import proofs.«176968_j64450279243825_2_alg».proof.Proof.KernelPayload

/-!
# A tile of the kernel's result is a tile of `out3`

Grid point `t` loads input rows `4096·t … 4096·t + 4095` — time steps `64·t … 64·t + 63` — and the whole weight and
bias arrays, the second step's padded to 128 columns. What it stores at `(a, h, l)` is therefore `out3` of the
argument arrays at `(64·t + a, h, l)`: the padded columns are never read by the gate.
-/

noncomputable section

namespace Cert.Lstm

open Idealize.ShloMosaic Idealize.ShloMosaic.ValueIdx Cert.Rows Cert.GateRows
open Cert.KernelIdeal Cert.KernelIdeal.Gen

theorem tile_eq (x0 : FVec Ideal S4096x256 .f32) (x1 : FVec Ideal S256x1024 .bf16) (x2 : FVec Ideal S1x1024 .f32)
    (x3 : FVec Ideal S256x128 .bf16) (x4 : FVec Ideal S1x128 .f32)
    (x : X3.Idx → EReal) (w1 : (S2 256 1024).Idx → EReal) (b1 : (S1 1024).Idx → EReal)
    (w2 : (S2 256 96).Idx → EReal) (b2 : (S1 96).Idx → EReal) (t : ℕ) (ht : t < 16)
    (hx : ∀ (p : Fin 4096) (k : Fin 256), x0 (ix2 p k)
      = x (ix3 ⟨(4096 * t + p.val) / 64, by have := p.isLt; omega⟩ ⟨(4096 * t + p.val) % 64, by omega⟩ k))
    (h1 : x1 = w1) (h2 : x2 = rowOf b1)
    (h3 : ∀ (k : Fin 256) (n : ℕ) (h : n < 128) (h' : n < 96), x3 (ix2 k ⟨n, h⟩) = w2 (ix2 k ⟨n, h'⟩))
    (h4 : ∀ (n : ℕ) (h : n < 128) (h' : n < 96), x4 (ix2 (0 : Fin 1) ⟨n, h⟩) = rowOf b2 (ix2 (0 : Fin 1) ⟨n, h'⟩))
    (a : Fin 64) (h : Fin 12) (l : Fin 128) :
    relay (mapRows (tileRow x1 x2 x3 x4) x0) (ix3 a h l)
      = out3 x w1 b1 w2 b2 (ix3 ⟨64 * t + a.val, by have := a.isLt; omega⟩ h l) := by
  have ha := a.isLt
  have hh := h.isLt
  have hl := l.isLt
  subst h1 h2
  rw [relay_apply, mapRows_ix2]
  unfold tileRow
  rw [cell_pad 48 72 (by omega) (by omega) (by omega) (by omega) (by omega) (by omega) (by omega) x3 x4 w2 (rowOf b2) h3 h4]
  show rowOut x1 b1 w2 b2 _ _ = rowOut x1 b1 w2 b2 (fun k => x (ix3 ⟨64 * t + a.val, _⟩ ⟨l.val / 2, _⟩ k)) ⟨2 * h.val + l.val % 2, _⟩
  refine rowOut_congr x1 b1 w2 b2 (funext fun k => ?_) rfl
  rw [hx]
  have e0 : (⟨(4096 * t + (a.val * 64 + l.val / 2)) / 64, by omega⟩ : Fin 1024) = ⟨64 * t + a.val, by omega⟩ :=
    Fin.ext (by show (4096 * t + (a.val * 64 + l.val / 2)) / 64 = 64 * t + a.val; omega)
  have e1 : (⟨(4096 * t + (a.val * 64 + l.val / 2)) % 64, by omega⟩ : Fin 64) = ⟨l.val / 2, by omega⟩ :=
    Fin.ext (by show (4096 * t + (a.val * 64 + l.val / 2)) % 64 = l.val / 2; omega)
  rw [e0, e1]

end Cert.Lstm

end
-- ==== Proof.KernelEntry.lean ====
import proofs.«176968_j64450279243825_2_alg».proof.Proof.Gen.KernelIdeal.Frame
import proofs.«176968_j64450279243825_2_alg».proof.Proof.LstmSpec
import Idealize.ShloMosaic.Lib.StableHlo.Run
import Idealize.ShloMosaic.Lib.KernelVsHost

/-!
# The arrays the kernel is launched on

Before the launch the host flattens the input to `[T·B, 256]`, keeps the first bias as a one-row matrix, pads the
second step's weights and bias from 96 to 128 columns, and rounds both weight matrices to half precision (the
identity on extended reals). Read at an index: the flattened row `n` is input row `(n / 64, n % 64)`; the padded
weights and bias agree with the originals on the first 96 columns.
-/

noncomputable section

namespace Cert.Lstm

open Idealize.ShloMosaic Idealize.ShloMosaic.TcCoe Idealize.ShloMosaic.ValueIdx Idealize.ShloMosaic.StableHlo Idealize.SL.Sem
open Cert.Rows Cert.GateRows
open Cert.KernelIdeal Cert.KernelIdeal.Gen

variable (m : (ℓ : Loc nD τ sig) → Buf (Elt Ideal) ℓ)

theorem entry_x (c : Dev nD) : (V m c main_v0 : S65536x256.Idx → EReal)
    = shapeCast S65536x256 (m ((c : Thread nD τ).loc main_arg0)) shapeCasts_S1024x64x256_S65536x256 := by
  dsimp only [V, V0]
  simp only [hostOps0, hostOps0_1, hostOps0_2, hostOps0_3, hostOps0_4, List.flatten_cons, List.flatten_nil,
    List.append_nil, List.cons_append, List.nil_append]
  after_results
  rfl

theorem entry_w1 (c : Dev nD) : (V m c main_v5 : S256x1024.Idx → EReal)
    = (m ((c : Thread nD τ).loc main_arg1) : S256x1024.Idx → EReal) := by
  dsimp only [V, V0]
  simp only [hostOps0, hostOps0_1, hostOps0_2, hostOps0_3, hostOps0_4, List.flatten_cons, List.flatten_nil,
    List.append_nil, List.cons_append, List.nil_append]
  after_results
  rfl

theorem entry_b1 (c : Dev nD) : (V m c main_v1 : S1x1024.Idx → EReal)
    = shapeCast S1x1024 (m ((c : Thread nD τ).loc main_arg2)) shapeCasts_S1024_S1x1024 := by
  dsimp only [V, V0]
  simp only [hostOps0, hostOps0_1, hostOps0_2, hostOps0_3, hostOps0_4, List.flatten_cons, List.flatten_nil,
    List.append_nil, List.cons_append, List.nil_append]
  after_results
  rfl

theorem entry_w2 (c : Dev nD) : (V m c main_v6 : S256x128.Idx → EReal)
    = (pad S256x128 ![0, 0] ![0, 32] ![0, 0] (m ((c : Thread nD τ).loc main_arg3))
        (sitofp (F := Ideal) .f32 (constantI S_ 32 0#32)) pads_S256x96_S256x128_000_0320 h_S_ : S256x128.Idx → EReal) := by
  dsimp only [V, V0]
  simp only [hostOps0, hostOps0_1, hostOps0_2, hostOps0_3, hostOps0_4, List.flatten_cons, List.flatten_nil,
    List.append_nil, List.cons_append, List.nil_append]
  after_results
  rfl

theorem entry_b2 (c : Dev nD) : (V m c main_v4 : S1x128.Idx → EReal)
    = shapeCast S1x128 (pad S128 ![0] ![32] ![0] (m ((c : Thread nD τ).loc main_arg4))
        (sitofp (F := Ideal) .f32 (constantI S_ 32 0#32)) pads_S96_S128_0320 h_S_) shapeCasts_S128_S1x128 := by
  dsimp only [V, V0]
  simp only [hostOps0, hostOps0_1, hostOps0_2, hostOps0_3, hostOps0_4, List.flatten_cons, List.flatten_nil,
    List.append_nil, List.cons_append, List.nil_append]
  after_results
  rfl

/-! ## Read at an index -/

/-- Flattened row `n` is input row `(n / 64, n % 64)`. -/
theorem entry_x_apply (c : Dev nD) (n : Fin 65536) (k : Fin 256) :
    V m c main_v0 (ix2 n k) = m ((c : Thread nD τ).loc main_arg0)
      (ix3 ⟨n.val / 64, by have := n.isLt; omega⟩ ⟨n.val % 64, by omega⟩ k) := by
  have hn := n.isLt
  have hk := k.isLt
  refine (congrFun (entry_x m c) (ix2 n k)).trans ?_
  exact shapeCast_apply _ shapeCasts_S1024x64x256_S65536x256 (ix2 n k) _ (by
    rewrite [Shape.rowMajor_val_three, Shape.rowMajor_val_two]
    show (n.val / 64 * 64 + n.val % 64) * 256 + k.val = n.val * 256 + k.val
    omega)

/-- The first step's weights are the argument's. -/
theorem entry_w1_eq (c : Dev nD) : (V m c main_v5 : S256x1024.Idx → EReal) = m ((c : Thread nD τ).loc main_arg1) :=
  entry_w1 m c

/-- The first step's bias row is the argument vector kept as a one-row matrix. -/
theorem entry_b1_eq (c : Dev nD) : (V m c main_v1 : S1x1024.Idx → EReal) = rowOf (m ((c : Thread nD τ).loc main_arg2)) :=
  (entry_b1 m c).trans (shapeCast_rowOf _ _)

/-- The padded second-step weights agree with the argument on the first 96 columns. -/
theorem entry_w2_apply (c : Dev nD) (k : Fin 256) (n : ℕ) (h : n < 96) (h' : n < 128) :
    V m c main_v6 (ix2 k ⟨n, h'⟩) = m ((c : Thread nD τ).loc main_arg3) (ix2 k ⟨n, h⟩) := by
  refine (congrFun (entry_w2 m c) (ix2 k ⟨n, h'⟩)).trans ?_
  exact pad_apply_of_inside ![0, 0] ![0, 32] ![0, 0] _ _ pads_S256x96_S256x128_000_0320 h_S_ (ix2 k ⟨n, h'⟩) (ix2 k ⟨n, h⟩)
    (fun a => by
      match a with
      | ⟨0, _⟩ => show k.val = 0 + k.val * (0 + 1); omega
      | ⟨1, _⟩ => show n = 0 + n * (0 + 1); omega)

/-- The padded second-step bias row agrees with the argument on the first 96 columns. -/
theorem entry_b2_apply (c : Dev nD) (n : ℕ) (h : n < 96) (h' : n < 128) :
    V m c main_v4 (ix2 (0 : Fin 1) ⟨n, h'⟩) = rowOf (m ((c : Thread nD τ).loc main_arg4)) (ix2 (0 : Fin 1) ⟨n, h⟩) := by
  refine (congrFun (entry_b2 m c) (ix2 (0 : Fin 1) ⟨n, h'⟩)).trans ?_
  refine (shapeCast_a_1a_apply _ shapeCasts_S128_S1x128 (0 : Fin 1) ⟨n, h'⟩).trans ?_
  exact pad_apply_of_inside ![0] ![32] ![0] _ _ pads_S96_S128_0320 h_S_ (ix1 ⟨n, h'⟩) (ix1 ⟨n, h⟩)
    (fun a => by
      match a with
      | ⟨0, _⟩ => show n = 0 + n * (0 + 1); omega)

end Cert.Lstm

end
-- ==== Proof.KernelValue.lean ====
import proofs.«176968_j64450279243825_2_alg».proof.Proof.Gen.KernelIdeal.Frame
import proofs.«176968_j64450279243825_2_alg».proof.Proof.KernelTile
import proofs.«176968_j64450279243825_2_alg».proof.Proof.KernelEntry
import Idealize.ShloMosaic.Lib.Pipeline.Value

/-!
# The kernel's result array

Point `t` of the 16-point grid writes back block `t` of the `[1024, 12, 128]` array — time steps `64·t … 64·t + 63`
— and that block is the same block of `out3` of the argument arrays. The 16 blocks tile the array, so after the run
the array is `out3`; the host's final reshape splits its last axis and gives `out4`.
-/

noncomputable section

namespace Cert.Lstm

open Idealize.ShloMosaic Idealize.ShloMosaic.TcCoe Idealize.ShloMosaic.ValueIdx Idealize.ShloMosaic.StableHlo Idealize.SL.Sem
open Idealize.ShloMosaic.Pipeline (Dat Cfg Window)
open Cert.Rows Cert.GateRows
open Cert.KernelIdeal Cert.KernelIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps over the grid: the input rows and the output move with the point, every other window
    stays at block 0. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The blocks a point loads -/

/-- Row `p` of the input block at point `t` is flattened row `4096·t + p`. -/
theorem blk_x (c : Dev nD) (t : Fin cfg0.N) (p : Fin 4096) (k : Fin 256) :
    iblk m c 0 t (ix2 p k) = m ((c : Thread nD τ).loc main_arg0)
      (ix3 ⟨(4096 * t.val + p.val) / 64, by have := t.isLt; have hN : cfg0.N = 16 := N_0; have := p.isLt; omega⟩
        ⟨(4096 * t.val + p.val) % 64, by omega⟩ k) := by
  have ht : t.val < 16 := by have := t.isLt; have hN : cfg0.N = 16 := N_0; omega
  have hp := p.isLt
  obtain ⟨e0, e1, -⟩ := index_maps t
  show V m c main_v0 (((cfg0.win 0).blk t).view.emb (ix2 p k)) = _
  have he : ((cfg0.win 0).blk t).view.emb (ix2 p k) = ix2 ⟨4096 * t.val + p.val, by omega⟩ k := by
    funext a; apply Fin.ext
    match a with
    | ⟨0, _⟩ => show win0_0.index t (0 : Fin 2) * 4096 + 1 * p.val = 4096 * t.val + p.val; omega
    | ⟨1, _⟩ => show win0_0.index t (1 : Fin 2) * 256 + 1 * k.val = k.val; omega
  rw [he]
  exact entry_x_apply m c _ k

/-- The first step's weight block is the whole argument. -/
theorem blk_w1 (c : Dev nD) (t : Fin cfg0.N) :
    (iblk m c 1 t : S256x1024.Idx → EReal) = m ((c : Thread nD τ).loc main_arg1) := by
  obtain ⟨-, -, e0, e1, -⟩ := index_maps t
  funext y
  show V m c main_v5 (((cfg0.win 1).blk t).view.emb y) = _
  have he : ((cfg0.win 1).blk t).view.emb y = y := by
    funext a; apply Fin.ext
    match a with
    | ⟨0, _⟩ => show win0_1.index t (0 : Fin 2) * 256 + 1 * (y 0).val = (y 0).val; omega
    | ⟨1, _⟩ => show win0_1.index t (1 : Fin 2) * 1024 + 1 * (y 1).val = (y 1).val; omega
  rw [he]
  exact congrFun (entry_w1_eq m c) y

/-- The first step's bias block is the argument vector as a one-row matrix. -/
theorem blk_b1 (c : Dev nD) (t : Fin cfg0.N) :
    (iblk m c 2 t : S1x1024.Idx → EReal) = rowOf (m ((c : Thread nD τ).loc main_arg2)) := by
  obtain ⟨-, -, -, -, e0, e1, -⟩ := index_maps t
  funext y
  show V m c main_v1 (((cfg0.win 2).blk t).view.emb y) = _
  have he : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 1024 + 1 * (y 1).val = (y 1).val; omega
  rw [he]
  exact congrFun (entry_b1_eq m c) y

/-- The second step's weight block agrees with the argument on the first 96 columns. -/
theorem blk_w2 (c : Dev nD) (t : Fin cfg0.N) (k : Fin 256) (n : ℕ) (h : n < 128) (h' : n < 96) :
    iblk m c 3 t (ix2 k ⟨n, h⟩) = m ((c : Thread nD τ).loc main_arg3) (ix2 k ⟨n, h'⟩) := by
  obtain ⟨-, -, -, -, -, -, e0, e1, -⟩ := index_maps t
  show V m c main_v6 (((cfg0.win 3).blk t).view.emb (ix2 k ⟨n, h⟩)) = _
  have he : ((cfg0.win 3).blk t).view.emb (ix2 k ⟨n, h⟩) = ix2 k ⟨n, h⟩ := by
    funext a; apply Fin.ext
    match a with
    | ⟨0, _⟩ => show win0_3.index t (0 : Fin 2) * 256 + 1 * k.val = k.val; omega
    | ⟨1, _⟩ => show win0_3.index t (1 : Fin 2) * 128 + 1 * n = n; omega
  rw [he]
  exact entry_w2_apply m c k n h' h

/-- The second step's bias block agrees with the argument on the first 96 columns. -/
theorem blk_b2 (c : Dev nD) (t : Fin cfg0.N) (n : ℕ) (h : n < 128) (h' : n < 96) :
    iblk m c 4 t (ix2 (0 : Fin 1) ⟨n, h⟩) = rowOf (m ((c : Thread nD τ).loc main_arg4)) (ix2 (0 : Fin 1) ⟨n, h'⟩) := by
  obtain ⟨-, -, -, -, -, -, -, -, e0, e1, -⟩ := index_maps t
  show V m c main_v4 (((cfg0.win 4).blk t).view.emb (ix2 (0 : Fin 1) ⟨n, h⟩)) = _
  have he : ((cfg0.win 4).blk t).view.emb (ix2 (0 : Fin 1) ⟨n, h⟩) = ix2 (0 : Fin 1) ⟨n, h⟩ := by
    funext a; apply Fin.ext
    match a with
    | ⟨0, _⟩ => show win0_4.index t (0 : Fin 2) * 1 + 1 * 0 = 0; omega
    | ⟨1, _⟩ => show win0_4.index t (1 : Fin 2) * 128 + 1 * n = n; omega
  rw [he]
  exact entry_b2_apply m c n h' h

/-! ## What a point writes back, and the whole array -/

/-- The result array with the last two axes merged, as a function of the arguments. -/
abbrev arr3 (c : Dev nD) : S1024x12x128.Idx → EReal :=
  out3 (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of `arr3`. -/
theorem flushed_eq (c : Dev nD) (t : Fin cfg0.N) :
    (dats m 0 c).flushed 5 t = ((cfg0.win 5).blk t).view.read (Elt Ideal) (arr3 m c) := by
  have ht : t.val < 16 := by have := t.isLt; have hN : cfg0.N = 16 := N_0; omega
  show (cfg0.win 5).cut (grid0.coords t) ((dats m 0 c).after 5 t) = _
  rw [after0_5]
  unfold out0_5
  rw [View.canon_unit_zero zero3]
  simp only [View.ld_unit_zero (S := S4096x256) zero2, View.ld_unit_zero (S := S256x1024) zero2,
    View.ld_unit_zero (S := S1x1024) zero2, View.ld_unit_zero (S := S256x128) zero2, View.ld_unit_zero (S := S1x128) zero2]
  rw [pay_eq]
  obtain ⟨-, -, -, -, -, -, -, -, -, -, e0, e1, e2⟩ := index_maps t
  funext j
  show relay (mapRows (tileRow (iblk m c 1 t) (iblk m c 2 t) (iblk m c 3 t) (iblk m c 4 t)) (iblk m c 0 t)) j
    = arr3 m c (((cfg0.win 5).blk t).view.emb j)
  have hj0 : (j 0).val < 64 := (j 0).isLt
  have hj1 : (j 1).val < 12 := (j 1).isLt
  have hj2 : (j 2).val < 128 := (j 2).isLt
  have he : ((cfg0.win 5).blk t).view.emb j = ix3 ⟨64 * t.val + (j 0).val, by omega⟩ ⟨(j 1).val, hj1⟩ ⟨(j 2).val, hj2⟩ := by
    funext a; apply Fin.ext
    match a with
    | ⟨0, _⟩ => show win0_5.index t (0 : Fin 3) * 64 + 1 * (j 0).val = 64 * t.val + (j 0).val; omega
    | ⟨1, _⟩ => show win0_5.index t (1 : Fin 3) * 12 + 1 * (j 1).val = (j 1).val; omega
    | ⟨2, _⟩ => show win0_5.index t (2 : Fin 3) * 128 + 1 * (j 2).val = (j 2).val; omega
  rw [he]
  have hj : j = ix3 ⟨(j 0).val, hj0⟩ ⟨(j 1).val, hj1⟩ ⟨(j 2).val, hj2⟩ := funext fun a => by
    match a with
    | ⟨0, _⟩ => rfl
    | ⟨1, _⟩ => rfl
    | ⟨2, _⟩ => rfl
  refine (congrArg (relay (mapRows (tileRow (iblk m c 1 t) (iblk m c 2 t) (iblk m c 3 t) (iblk m c 4 t)) (iblk m c 0 t))) hj).trans ?_
  exact tile_eq (iblk m c 0 t) (iblk m c 1 t) (iblk m c 2 t) (iblk m c 3 t) (iblk m c 4 t) _ _ _ _ _ t.val ht
    (blk_x m c t) (blk_w1 m c t) (blk_b1 m c t) (blk_w2 m c t) (blk_b2 m c t) ⟨(j 0).val, hj0⟩ ⟨(j 1).val, hj1⟩ ⟨(j 2).val, hj2⟩

/-- An index of the array is in point `t`'s block iff each coordinate is in the block's range on its axis. -/
theorem mem_blk (t : Fin cfg0.N) (i : S1024x12x128.Idx) :
    i ∈ ((cfg0.win 5).blk t).view.set ↔ ∀ a : Fin 3, win0_5.index t a * S64x12x128.size a ≤ (i a).val
      ∧ (i a).val < win0_5.index t a * S64x12x128.size a + S64x12x128.size a := by
  show i ∈ ((View.whole main_v7).slice (win0_5.rect t)).set ↔ _
  rw [View.set_slice_whole, Rect.mem_set_unit]
  exact Iff.rfl

/-- Every index of the array is in the block of the point its time step falls in. -/
theorem cover (i : S1024x12x128.Idx) :
    ∃ t : Fin cfg0.N, (cfg0.win 5).flush t = true ∧ i ∈ ((cfg0.win 5).blk t).view.set := by
  have hi0 : (i 0).val < 1024 := (i 0).isLt
  have hi1 : (i 1).val < 12 := (i 1).isLt
  have hi2 : (i 2).val < 128 := (i 2).isLt
  refine ⟨⟨(i 0).val / 64, by rw [show cfg0.N = 16 from N_0]; omega⟩, flush0_5 _, ?_⟩
  rw [mem_blk]
  obtain ⟨-, -, -, -, -, -, -, -, -, -, e0, e1, e2⟩ := index_maps ⟨(i 0).val / 64, by rw [show cfg0.N = 16 from N_0]; omega⟩
  intro a
  match a with
  | ⟨0, _⟩ =>
    show win0_5.index _ (0 : Fin 3) * 64 ≤ (i 0).val ∧ (i 0).val < win0_5.index _ (0 : Fin 3) * 64 + 64
    rw [e0]; show (i 0).val / 64 * 64 ≤ (i 0).val ∧ (i 0).val < (i 0).val / 64 * 64 + 64; omega
  | ⟨1, _⟩ =>
    show win0_5.index _ (1 : Fin 3) * 12 ≤ (i 1).val ∧ (i 1).val < win0_5.index _ (1 : Fin 3) * 12 + 12
    rw [e1]; omega
  | ⟨2, _⟩ =>
    show win0_5.index _ (2 : Fin 3) * 128 ≤ (i 2).val ∧ (i 2).val < win0_5.index _ (2 : Fin 3) * 128 + 128
    rw [e2]; omega

/-- THE ARRAY after the run is `arr3`. -/
theorem final (c : Dev nD) : (dats m 0 c).arrAt 5 cfg0.N = arr3 m c :=
  (dats m 0 c).arrAt_eq_of_cover 5 (arr3 m c) (fun t _ => flushed_eq m c t) cover

end Cert.Lstm

end
-- ==== Proof.KernelRun.lean ====
import proofs.«176968_j64450279243825_2_alg».proof.Proof.KernelValue

/-!
# The kernel program's run, read

After the launch the host reshapes the `[1024, 12, 128]` array to `[1024, 12, 64, 2]`. Every execution of the
program therefore ends with its result at `out4` of the argument arrays, and the arguments as they were.
-/

noncomputable section

namespace Cert.Lstm

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-- The result as a function of the arguments. -/
abbrev arr4 (c : Dev nD) : S1024x12x64x2.Idx → EReal :=
  out4 (m ((c : Thread nD τ).loc main_arg0)) (m ((c : Thread nD τ).loc main_arg1)) (m ((c : Thread nD τ).loc main_arg2))
    (m ((c : Thread nD τ).loc main_arg3)) (m ((c : Thread nD τ).loc main_arg4))

/-- What the host's final reshape leaves in the result buffer. -/
theorem result_eq (c : Dev nD) :
    (Pipeline.afterTail₀ cfgs (dats m) 0 (V0 m) [hostOps1] c main_v8 : S1024x12x64x2.Idx → EReal) = arr4 m c := by
  unfold Pipeline.afterTail₀
  show StableHlo.after hostOps1 _ (Proc.devRef .tc main_v8) = _
  after_results
  refine (congrArg (fun z => shapeCast S1024x12x64x2 z shapeCasts_S1024x12x128_S1024x12x64x2)
    ((Pipeline.withArrays_arr spec0 launch0.win.arr_inj c _ _ 5).trans (final m c))).trans ?_
  exact out4_of_out3 _ _ _ _ _ _

/-- THE RUN: every weakly fair execution terminates with the result at `arr4` and the arguments unchanged. -/
theorem run : θ_run defs (onTc (τ := τ) (main (F := Ideal))) ⟨m, fun _ => 0, ρ⟩ (fun r => ∀ c : Dev nD,
      r.2.mem ((c.tc : Thread nD τ).loc main_v8) = arr4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Lstm

end
-- ==== Proof.RefValue.lean ====
import proofs.«176968_j64450279243825_2_alg».proof.Proof.Gen.ReferenceIdeal.Read
import proofs.«176968_j64450279243825_2_alg».proof.Proof.LstmSpec

/-!
# The reference computes the two gated steps row by row

The reference flattens the input to `[T·B, 256]`, applies each step to the whole array (a product with the weights,
the bias added, the gate with the logistic function written out), reshapes the `[T·B, 24]` result to
`[T, B, 12, 2]` and swaps the batch and gate-half axes. Each stage acts on every row by itself, so the result at
`(t, h, b, p)` is the two steps applied to input row `(t, b)`, read at column `2·h + p`.
-/

noncomputable section

namespace Cert.Lstm

open Idealize.ShloMosaic Idealize.ShloMosaic.ValueIdx Cert.Rows Cert.GateRows
open Cert.ReferenceIdeal Cert.ReferenceIdeal.Gen Cert.ReferenceIdeal.Read

variable (x0 : FVec Ideal S1024x64x256 .f32) (x1 : FVec Ideal S256x1024 .f32) (x2 : FVec Ideal S1024 .f32)
  (x3 : FVec Ideal S256x96 .f32) (x4 : FVec Ideal S96 .f32)

/-- The first step's pre-activations: every flattened row times the weights, plus the bias. -/
theorem ref_pre1 : val_main_v4 (F := Ideal) x0 x1 x2
    = mapRows (fun r => addRow (rowOf x2) (lin x1 r)) (val_main_v0 (F := Ideal) x0) := by
  unfold val_main_v4 val_main_v1 val_main_v3 val_main_v2
  rw [host_lin dot_S65536x256_S256x1024_S65536x1024_1_0_0_1_n_n ⟨rfl, rfl, rfl, rfl, rfl, rfl⟩,
    host_bias _ x2 _ _ (by decide), shapeCast_rowOf]
  rfl

/-- The first step's hidden rows. -/
theorem ref_hid1 : val_main_v23 (F := Ideal) x0 x1 x2
    = mapRows (gate 512 768 (by omega) (by omega) (by omega)) (val_main_v4 (F := Ideal) x0 x1 x2) := by
  unfold val_main_v23 val_main_v22 val_main_v21 val_main_v20 val_main_v19 val_main_v18 val_main_v17 val_main_v16
    val_main_v15 val_main_v14 val_main_v13 val_main_v12 val_main_v11 val_main_v10 val_main_v9 val_main_v8 val_main_v7
    val_main_v6 val_main_v5 val_main_cst val_main_cst_0 val_main_cst_1 val_main_cst_2
  exact host_gate 512 768 (by omega) (by omega) (by omega) _ _ _ _ _

/-- The second step's pre-activations. -/
theorem ref_pre2 : val_main_v27 (F := Ideal) x0 x1 x2 x3 x4
    = mapRows (fun r => addRow (rowOf x4) (lin x3 r)) (val_main_v23 (F := Ideal) x0 x1 x2) := by
  unfold val_main_v27 val_main_v24 val_main_v26 val_main_v25
  rw [host_lin dot_S65536x256_S256x96_S65536x96_1_0_0_1_n_n ⟨rfl, rfl, rfl, rfl, rfl, rfl⟩,
    host_bias _ x4 _ _ (by decide), shapeCast_rowOf]
  rfl

/-- The second step's hidden rows. -/
theorem ref_hid2 : val_main_v46 (F := Ideal) x0 x1 x2 x3 x4
    = mapRows (gate 48 72 (by omega) (by omega) (by omega)) (val_main_v27 (F := Ideal) x0 x1 x2 x3 x4) := by
  unfold val_main_v46 val_main_v45 val_main_v44 val_main_v43 val_main_v42 val_main_v41 val_main_v40 val_main_v39
    val_main_v38 val_main_v37 val_main_v36 val_main_v35 val_main_v34 val_main_v33 val_main_v32 val_main_v31 val_main_v30
    val_main_v29 val_main_v28 val_main_cst_3 val_main_cst_4 val_main_cst_5 val_main_cst_6
  exact host_gate 48 72 (by omega) (by omega) (by omega) _ _ _ _ _

/-- Both steps: every flattened row through `rowOut`. -/
theorem ref_rows : val_main_v46 (F := Ideal) x0 x1 x2 x3 x4
    = mapRows (rowOut x1 x2 x3 x4) (val_main_v0 (F := Ideal) x0) := by
  rw [ref_hid2, ref_pre2, ref_hid1, ref_pre1]
  rfl

/-- Flattened row `t·64 + b` is input row `(t, b)`. -/
theorem ref_flat (t : Fin 1024) (b : Fin 64) (k : Fin 256) :
    val_main_v0 (F := Ideal) x0 (ix2 ⟨t.val * 64 + b.val, by have := t.isLt; have := b.isLt; omega⟩ k) = x0 (ix3 t b k) := by
  have ht := t.isLt
  have hb := b.isLt
  have hk := k.isLt
  rw [val_main_v0_apply]
  refine congrArg x0 (funext fun a => Fin.ext ?_)
  match a with
  | ⟨0, _⟩ => show ((t.val * 64 + b.val) * 256 + k.val) / 16384 = t.val; omega
  | ⟨1, _⟩ => show ((t.val * 64 + b.val) * 256 + k.val) / 256 % 64 = b.val; omega
  | ⟨2, _⟩ => show ((t.val * 64 + b.val) * 256 + k.val) % 256 = k.val; omega

/-- THE REFERENCE'S RESULT is `out4` of the arguments. -/
theorem ref_eq : val_main_v48 (F := Ideal) x0 x1 x2 x3 x4 = out4 x0 x1 x2 x3 x4 := by
  funext i
  obtain ⟨t, h, b, p, rfl⟩ : ∃ (t : Fin 1024) (h : Fin 12) (b : Fin 64) (p : Fin 2), i = ix4 t h b p :=
    ⟨i 0, i 1, i 2, i 3, eq_ix4 i⟩
  have ht := t.isLt
  have hh := h.isLt
  have hb := b.isLt
  have hp := p.isLt
  rw [val_main_v48_apply, val_main_v47_apply, ref_rows]
  have e : idx_main_v47 (idx_main_v48 (ix4 t h b p))
      = ix2 ⟨t.val * 64 + b.val, by omega⟩ ⟨2 * h.val + p.val, by omega⟩ := funext fun a => Fin.ext (by
    match a with
    | ⟨0, _⟩ => show (((t.val * 64 + b.val) * 12 + h.val) * 2 + p.val) / 24 = t.val * 64 + b.val; omega
    | ⟨1, _⟩ => show (((t.val * 64 + b.val) * 12 + h.val) * 2 + p.val) % 24 = 2 * h.val + p.val; omega)
  rw [e, mapRows_ix2]
  show rowOut x1 x2 x3 x4 _ _ = rowOut x1 x2 x3 x4 (fun k => x0 (ix3 ⟨t.val, _⟩ ⟨b.val, _⟩ k)) ⟨2 * h.val + p.val, _⟩
  exact rowOut_congr x1 x2 x3 x4 (funext fun k => ref_flat x0 t b k) rfl

end Cert.Lstm

end
-- ==== Proof.lean ====
/-
  Two chained single-step gated recurrent cells with zero initial state, applied to every row of a `[T·B, 256]` matrix
  (T = 1024 time steps, B = 64 batch entries), and the `[T·B, 24]` result laid out as `[T, 12, B, 2]`.

  A row `r` goes to `z = r·W + b`, and the hidden row is `σ(z_o) · tanh(σ(z_i) · tanh(z_g))` with `σ` the logistic
  function and `z_i`, `z_g`, `z_o` three column windows of `z`; this is done twice, with 256 and then 24 hidden columns.

  The kernel works on tiles of 4096 rows (64 time steps each), rounds the operands of both matrix products to half
  precision (the identity on extended reals), pads the second step's weights and bias from 96 to 128 columns (the gate
  never reads the padding), uses one logistic operation where the reference writes `1 / (1 + exp(-x))` (the same
  function of an extended real), and writes each tile already transposed, as `[64, 12, 128]`; a final reshape splits
  the last axis into `(B, 2)`. The reference does the same arithmetic on the whole `[T·B, ·]` arrays and then reshapes
  and transposes. Both programs compute, at `(t, h, b, p)`, the two steps applied to input row `(t, b)`, read at
  column `2·h + p`: the function `Cert.Lstm.out4` of the arguments. No sum is regrouped and nothing is distributed
  over a sum, so the inputs' finiteness is never used.
-/
import proofs.«176968_j64450279243825_2_alg».proof.Defs
import proofs.«176968_j64450279243825_2_alg».proof.Proof.Gen.Kernel
import proofs.«176968_j64450279243825_2_alg».proof.Proof.Gen.Kernel.Frame
import proofs.«176968_j64450279243825_2_alg».proof.Proof.Gen.KernelIdeal
import proofs.«176968_j64450279243825_2_alg».proof.Proof.Gen.KernelIdeal.Frame
import proofs.«176968_j64450279243825_2_alg».proof.Proof.Gen.ReferenceIdeal
import proofs.«176968_j64450279243825_2_alg».proof.Proof.Gen.ReferenceIdeal.Run
import proofs.«176968_j64450279243825_2_alg».proof.Proof.Gen.ReferenceIdeal.Read
import proofs.«176968_j64450279243825_2_alg».proof.Proof.Gen.Pre_finite_inputs
import proofs.«176968_j64450279243825_2_alg».proof.Proof.KernelRun
import proofs.«176968_j64450279243825_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read over the extended reals. -/
theorem preserves : Cert.preserves_Kernel_KernelIdeal := trivial

/-- Both programs end with `out4` of the (agreeing) arguments in their result buffer. -/
theorem algebraic : Cert.algebraic_KernelIdeal_ReferenceIdeal := by
  intro m ρ m' ρ' _ hagree
  refine ⟨fun c => Cert.Lstm.arr4 m c, Cert.Lstm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.Lstm.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
